-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S16384x1024 : Shape := ⟨2, ![16384, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16777216, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216_S16384x1024 : S16777216.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S16384x1024_S16777216 : S16384x1024.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .f32 = 32 ∨ (Rect.block (s := S16384x1024) S2048x1024.size (cc0_transform_2 i) (hinb0_2 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .i1⟩
  | .hbm, ⟨31, _⟩ => ⟨S_, .f32⟩
  | .hbm, ⟨32, _⟩ => ⟨S16777216, .f32⟩
  | .hbm, ⟨33, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.ClampedLoss.lean ====
/-
  The per-element loss both programs compute, as ONE function on the extended reals.

  For a prediction `p` and a label `y` the loss is the binary cross-entropy with both logarithms clamped below at −100,

      −( y · max(log p, −100) + (1 − y) · max(log(1 + (−p)), −100) ),

  replaced by zero where the prediction is already on the label's side of one half, that is where
  `(p − ½) · (2y − 1) > 0`. The five float words (0, ½, 1, 2, −100) are the same words in both programs, so they are
  kept as words and never evaluated — except zero, once: the kernel spells a negation `0 − x` where the reference
  negates, and on the extended reals `0 − x = −x` for EVERY `x`, the infinities included (`x − y` is `x + (−y)` and
  zero is neutral for the sum). That one law is all that separates the two programs' terms; no finiteness is used.
-/
import Idealize.ShloMosaic.PureOps.Ideal
import Idealize.ShloMosaic.PureOps.Ideal.Laws

noncomputable section

namespace Cert.Loss

open Idealize.ShloMosaic

/-- The word of `0.0`, read on the extended reals. -/
abbrev zeroW : EReal := Ideal.ofBits .f32 0x00000000#32
/-- The word of `0.5`. -/
abbrev halfW : EReal := Ideal.ofBits .f32 0x3F000000#32
/-- The word of `1.0`. -/
abbrev oneW : EReal := Ideal.ofBits .f32 0x3F800000#32
/-- The word of `2.0`. -/
abbrev twoW : EReal := Ideal.ofBits .f32 0x40000000#32
/-- The word of `-100.0`, the clamp of both logarithms. -/
abbrev clampW : EReal := Ideal.ofBits .f32 0xC2C80000#32

/-- The loss of one prediction `p` against one label `y`: zero where `(p − ½)(2y − 1) > 0`, else the clamped
    cross-entropy `−(y · max(log p, −100) + (1 − y) · max(log(1 + (−p)), −100))`. -/
def lossAt (p y : EReal) : EReal :=
  Scalar.select (Ideal.cmp .ogt ((p - halfW) * (twoW * y - oneW)) zeroW) zeroW
    (-(y * max (Ideal.log p) clampW + (oneW - y) * max (Ideal.log1p (-p)) clampW))

/-- Subtracting from the zero word is negation, on every extended real. -/
theorem zeroW_sub (x : EReal) : zeroW - x = -x := by
  rw [show zeroW = 0 from Ideal.ofBits_zero_f32, zero_sub]

/-- The same loss with both negations spelt as differences from zero — the form the kernel's body computes. -/
theorem lossAt_of_zero_sub (p y : EReal) :
    Scalar.select (Ideal.cmp .ogt ((p - halfW) * (twoW * y - oneW)) zeroW) zeroW
      (zeroW - (y * max (Ideal.log p) clampW + (oneW - y) * max (Ideal.log1p (zeroW - p)) clampW))
    = lossAt p y := by
  rw [zeroW_sub, zeroW_sub]; rfl

end Cert.Loss

end
-- ==== Proof.RefLoss.lean ====
/-
  The reference, read at an index: its result at `i` is the loss of its `i`-th prediction against its `i`-th label.

  Every operation of the reference is elementwise (a logarithm, a clamp by a maximum against a broadcast scalar, products,
  a sum, a negation, a comparison and a select), so its composed term at an index is the per-element term of the two
  argument entries at that index; the host's logarithms and negation are, on the extended reals, the same functions the
  specification names.
-/
import proofs.«175099_j48223892800204_2_alg».proof.Proof.Gen.ReferenceIdeal.Read
import proofs.«175099_j48223892800204_2_alg».proof.Proof.ClampedLoss

noncomputable section

namespace Cert.ReferenceIdeal.Loss

open Cert.ReferenceIdeal Idealize.ShloMosaic Cert.Loss

/-- The reference's last stage, as a function of the two argument arrays, is the loss entry by entry. -/
theorem stage_eq (x0 x1 : S16777216.Idx → EReal) :
    Cert.ReferenceIdeal.Read.val_main_v23 (F := Ideal) x0 x1 = fun i => lossAt (x0 i) (x1 i) := by
  funext i
  rfl

end Cert.ReferenceIdeal.Loss

end
-- ==== Proof.KernelLoss.lean ====
/-
  The kernel's body, read at an index of its block: what it stores at `j` is the loss of the prediction block's entry at `j`
  against the label block's entry at `j`.

  The body loads its two whole blocks, computes pointwise, and stores the whole result block. Its two shape casts are to
  the block's own shape (the identity), every scalar is broadcast, and its two negations are differences from zero.
-/
import proofs.«175099_j48223892800204_2_alg».proof.Proof.Gen.KernelIdeal.Skeleton
import proofs.«175099_j48223892800204_2_alg».proof.Proof.ClampedLoss
import Idealize.ShloMosaic.Lib.Pipeline.Value

noncomputable section

namespace Cert.KernelIdeal.Loss

open Cert.KernelIdeal Cert.KernelIdeal.Gen Idealize.ShloMosaic Cert.Loss

/-- A [2048, 1024] block of losses: the loss of a block of predictions against a block of labels, entry by entry. -/
def lossBlock (x0 x1 : Vec Ideal S2048x1024 .f32) : Vec Ideal S2048x1024 .f32 := fun j => lossAt (x0 j) (x1 j)

/-- The stored block is the loss of the two loaded blocks, entry by entry. -/
theorem payload_eq (x0 x1 : Vec Ideal S2048x1024 .f32) : k0_pay1 (F := Ideal) x0 x1 = lossBlock x0 x1 := by
  funext j
  unfold k0_pay1
  simp only [shapeCast_self]
  exact lossAt_of_zero_sub (x0 j) (x1 j)

end Cert.KernelIdeal.Loss

end
-- ==== Proof.KernelArray.lean ====
/-
  The kernel's result array as one function of its two argument arrays.

  The program reshapes each flat argument of 16777216 entries to 16384 rows of 1024, runs the body over 8 grid points —
  point `t` reads rows `2048·t … 2048·t + 2047` of both reshaped arrays and writes the same rows of the output —, and
  reshapes the output back to the flat shape. Every block of the output is the same rows of ONE whole-array function (the
  loss, entry by entry, of the two reshaped arrays), the 8 blocks tile the 16384 rows (row `r` is in the block of point
  `r / 2048`), so the output array is that function; and since the function is entrywise and the two reshapes are inverse
  re-indexings, the flat result at `i` is the loss of the flat prediction at `i` against the flat label at `i`.
-/
import proofs.«175099_j48223892800204_2_alg».proof.Proof.Gen.KernelIdeal.Frame
import proofs.«175099_j48223892800204_2_alg».proof.Proof.KernelLoss
import Idealize.ShloMosaic.Lib.Pipeline.Value
import Idealize.ShloMosaic.Lib.StableHlo.Run

set_option maxRecDepth 16384

noncomputable section

namespace Cert.KernelIdeal.Loss

open Cert.KernelIdeal Cert.KernelIdeal.Gen Idealize.ShloMosaic Idealize.ShloMosaic.TcCoe Idealize.SL.Sem Cert.Loss
open Idealize.ShloMosaic.StableHlo
open Idealize.ShloMosaic.Pipeline (Dat)

variable (m : (ℓ : Loc nD τ sig) → Buf (Elt Ideal) ℓ) (ρ : Dev nD → PrngReg)

/-! ## One function for every block -/

/-- The body's accesses start at the block's origin. -/
theorem origin : (![0, 0] : Fin 2 → Nat) = fun _ => 0 := funext fun a => by fin_cases a <;> rfl

/-- The [16384, 1024] array of losses of an array of predictions against an array of labels, entry by entry. -/
def lossRows (a0 a1 : S16384x1024.Idx → EReal) : S16384x1024.Idx → EReal := fun i => lossAt (a0 i) (a1 i)

/-- At every grid point the two input blocks sit where the output block sits: the same block of rows, the one block of
    columns; and the block of rows is one of the 8. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 7
    ∧ win0_2.index t (1 : Fin 2) = 0 :=
  (by decide +kernel : ∀ t : Fin grid0.N, _)

/-- Each of the 8 blocks of rows is some point's. -/
theorem every_block : ∀ q : Fin 8, ∃ t : Fin cfg0.N, win0_2.index t = ![q.val, 0] :=
  (by decide +kernel : ∀ q : Fin 8, ∃ t : Fin grid0.N, win0_2.index t = ![q.val, 0])

/-- What point `t` writes back is its block of rows of the losses of the two staged arrays. -/
theorem written_eq (c : Dev nD) (t : Fin cfg0.N) :
    (dats m 0 c).flushed 2 t = ((cfg0.win 2).blk t).view.read (Elt Ideal) (lossRows (V m c main_v0) (V m c main_v1)) := by
  show (cfg0.win 2).cut (grid0.coords t) ((dats m 0 c).after 2 t) = _
  rw [after0_2]
  unfold out0_2
  rw [View.canon_unit_zero origin]
  simp only [View.ld_unit_zero (S := S2048x1024) origin]
  rw [payload_eq]
  obtain ⟨e0, e1, e2, e3, e4, e5⟩ := same_block t
  funext j
  show lossAt (V m c main_v0 (((cfg0.win 0).blk t).view.emb j)) (V m c main_v1 (((cfg0.win 1).blk t).view.emb j))
    = lossAt (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb j = ((cfg0.win 2).blk t).view.emb j := by
    funext a; apply Fin.ext
    match a with
    | ⟨0, _⟩ => show win0_1.index t (0 : Fin 2) * 2048 + 1 * (j 0).val = win0_2.index t (0 : Fin 2) * 2048 + 1 * (j 0).val; omega
    | ⟨1, _⟩ => show win0_1.index t (1 : Fin 2) * 1024 + 1 * (j 1).val = win0_2.index t (1 : Fin 2) * 1024 + 1 * (j 1).val; omega
  rw [h0, h1]

/-! ## The blocks tile the rows -/

/-- An entry of the output array is in point `t`'s block iff each of its coordinates is in the block's range. -/
theorem mem_block (t : Fin cfg0.N) (i : S16384x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v2).slice (win0_2.rect t)).set ↔ _
  rw [View.set_slice_whole, Rect.mem_set_unit]
  exact Iff.rfl

/-- Every entry is in the block of the point whose block of rows holds its row. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := every_block ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The output array after the region: the losses of the two staged arrays. -/
theorem rows_eq (c : Dev nD) : (dats m 0 c).arrAt 2 cfg0.N = lossRows (V m c main_v0) (V m c main_v1) :=
  (dats m 0 c).arrAt_eq_of_cover 2 _ (fun t _ => written_eq m c t) covered

/-! ## The reshapes around the region -/

/-- The region finds the predictions reshaped to rows. -/
theorem staged_pred (c : Dev nD) :
    (V m c main_v0 : S16384x1024.Idx → EReal)
      = shapeCast S16384x1024 (m ((c : Thread nD τ).loc main_arg0) : S16777216.Idx → EReal) Facts₀.shapeCasts_S16777216_S16384x1024 := by
  show StableHlo.after hostOps0 (fun b => m (c, b)) (Proc.devRef .tc main_v0) = _
  after_results
  rfl

/-- The region finds the labels reshaped to rows. -/
theorem staged_label (c : Dev nD) :
    (V m c main_v1 : S16384x1024.Idx → EReal)
      = shapeCast S16384x1024 (m ((c : Thread nD τ).loc main_arg1) : S16777216.Idx → EReal) Facts₀.shapeCasts_S16777216_S16384x1024 := by
  show StableHlo.after hostOps0 (fun b => m (c, b)) (Proc.devRef .tc main_v1) = _
  after_results
  rfl

/-- Reshaping two flat arrays to rows, taking losses entry by entry and reshaping back is taking losses entry by entry:
    the two reshapes are inverse re-indexings and the loss at an entry reads that entry alone. -/
theorem lossRows_reshape (a b : S16777216.Idx → EReal) (h : S16777216.ShapeCasts S16384x1024) (h' : S16384x1024.ShapeCasts S16777216) :
    shapeCast S16777216 (lossRows (shapeCast S16384x1024 a h) (shapeCast S16384x1024 b h)) h' = fun i => lossAt (a i) (b i) :=
  shapeCast_shapeCast (fun i => lossAt (a i) (b i)) h h'

/-- The flat result the program returns: the loss of each prediction against its label. -/
theorem result_eq (c : Dev nD) :
    Pipeline.afterTail₀ cfgs (dats m) 0 (V0 m) [hostOps1] c main_v3
      = fun i => lossAt (m ((c : Thread nD τ).loc main_arg0) i) (m ((c : Thread nD τ).loc main_arg1) i) := by
  unfold Pipeline.afterTail₀
  show StableHlo.after hostOps1 _ (Proc.devRef .tc main_v3) = _
  after_results
  have hrows : Pipeline.withArrays (cfgs 0).spec c (V0 m c) (fun w => (dats m 0 c).arrAt w (cfgs 0).N) (Proc.devRef .tc main_v2)
      = lossRows (shapeCast S16384x1024 (m ((c : Thread nD τ).loc main_arg0) : S16777216.Idx → EReal) Facts₀.shapeCasts_S16777216_S16384x1024)
          (shapeCast S16384x1024 (m ((c : Thread nD τ).loc main_arg1) : S16777216.Idx → EReal) Facts₀.shapeCasts_S16777216_S16384x1024) :=
    (Pipeline.withArrays_arr spec0 launch0.win.arr_inj c _ _ 2).trans
      ((rows_eq m c).trans (by rw [staged_pred, staged_label]))
  rw [hrows]
  exact lossRows_reshape _ _ _ _

/-! ## The run -/

/-- Every weakly fair execution of the program terminates, without a fault, with its result array at the loss of each
    prediction against its label and its two argument arrays unchanged. -/
theorem run : θ_run defs (onTc (τ := τ) (main (F := Ideal))) ⟨m, fun _ => 0, ρ⟩ fun r => ∀ c : Dev nD,
      r.2.mem ((c.tc : Thread nD τ).loc main_v3)
        = (fun i => lossAt (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Loss

end
-- ==== Proof.lean ====
/-
  The kernel computes, for 16777216 predictions `p` and labels `y`, the binary cross-entropy with both logarithms clamped
  below at −100, `−(y · max(log p, −100) + (1 − y) · max(log(1 + (−p)), −100))`, and replaces it by zero where
  `(p − ½)(2y − 1) > 0`; the reference computes the same thing with plain array operations.

  On the extended reals the two programs agree entry by entry, for every input (no finiteness is used):
  * Proof/ClampedLoss.lean states the per-entry loss once, and the one law that joins the two spellings — the kernel writes
    a negation as `0 − x`, the reference negates, and `0 − x = −x` on every extended real;
  * Proof/RefLoss.lean: the reference's result at `i` is that loss of its arguments' entries at `i` (every operation of it is
    entrywise);
  * Proof/KernelLoss.lean: the block the kernel's body stores is that loss of the two blocks it loads, entry by entry;
  * Proof/KernelArray.lean: the 8 blocks of 2048 rows tile the 16384 × 1024 output, each the same rows of one whole-array
    function, and the reshapes before and after the kernel are inverse re-indexings, so the flat result at `i` is the loss
    of the flat arguments' entries at `i`.
  The three programs terminate without a fault and leave their arguments unchanged: the kernel's two readings by their
  generated frame runs, the reference by its generated run. The idealized kernel is the kernel's own text read on the extended
  reals (no operation was rewritten), so there is nothing to preserve.
-/
import proofs.«175099_j48223892800204_2_alg».proof.Defs
import proofs.«175099_j48223892800204_2_alg».proof.Proof.Gen.Kernel
import proofs.«175099_j48223892800204_2_alg».proof.Proof.Gen.Kernel.Skeleton
import proofs.«175099_j48223892800204_2_alg».proof.Proof.Gen.Kernel.Launch
import proofs.«175099_j48223892800204_2_alg».proof.Proof.Gen.Kernel.Points
import proofs.«175099_j48223892800204_2_alg».proof.Proof.Gen.Kernel.Frame
import proofs.«175099_j48223892800204_2_alg».proof.Proof.Gen.KernelIdeal
import proofs.«175099_j48223892800204_2_alg».proof.Proof.Gen.KernelIdeal.Skeleton
import proofs.«175099_j48223892800204_2_alg».proof.Proof.Gen.KernelIdeal.Launch
import proofs.«175099_j48223892800204_2_alg».proof.Proof.Gen.KernelIdeal.Points
import proofs.«175099_j48223892800204_2_alg».proof.Proof.Gen.KernelIdeal.Frame
import proofs.«175099_j48223892800204_2_alg».proof.Proof.Gen.ReferenceIdeal
import proofs.«175099_j48223892800204_2_alg».proof.Proof.Gen.ReferenceIdeal.Run
import proofs.«175099_j48223892800204_2_alg».proof.Proof.Gen.ReferenceIdeal.Read
import proofs.«175099_j48223892800204_2_alg».proof.Proof.Gen.Pre_finite_inputs
import proofs.«175099_j48223892800204_2_alg».proof.Proof.ClampedLoss
import proofs.«175099_j48223892800204_2_alg».proof.Proof.RefLoss
import proofs.«175099_j48223892800204_2_alg».proof.Proof.KernelLoss
import proofs.«175099_j48223892800204_2_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its run, with what it says of the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The two idealized programs, from memories that agree on the arguments, both end with the loss of each prediction
    against its label in their result arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Loss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.Loss.stage_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
